-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x43 : Shape := ⟨2, ![262144, 43]⟩
abbrev S4x43x43 : Shape := ⟨3, ![4, 43, 43]⟩
abbrev S4x43 : Shape := ⟨2, ![4, 43]⟩
abbrev S_ : Shape := ⟨0, ![]⟩

class Facts : Prop where
  bcast_S_S262144x43 : S_.BroadcastsInDim S262144x43 (![] : Fin 0 → Fin S262144x43.rank)
  reducesTo_S262144x43_S_d0_1 : S262144x43.ReducesTo [0, 1] S_
  h_S_ : 0 < S_.numel
  bcast_S_S4x43x43 : S_.BroadcastsInDim S4x43x43 (![] : Fin 0 → Fin S4x43x43.rank)
  reducesTo_S4x43x43_S_d0_1_2 : S4x43x43.ReducesTo [0, 1, 2] S_
  bcast_S_S4x43 : S_.BroadcastsInDim S4x43 (![] : Fin 0 → Fin S4x43.rank)
  reducesTo_S4x43_S_d0_1 : S4x43.ReducesTo [0, 1] S_

variable [Facts]

def fn_part1 {F : FTy → Type} [FloatOps F] (main_arg4 : FVec F S4x43 .f32) (main_arg5 : FVec F S4x43x43 .f32) (main_arg6 : FVec F S4x43 .f32) (main_v13 : IVec S_ 1) (main_v16 : IVec S4x43x43 1) : IVec S_ 1 :=
  let main_c_5 : IVec S_ 1 := constantI S_ 1 1#1
  let main_v17 : IVec S_ 1 := (fun x v => Host.reduce IntOp.andi x v reducesTo_S4x43x43_S_d0_1_2 h_S_) main_v16 main_c_5
  let main_v18 : IVec S_ 1 := andi main_v13 main_v17
  let main_v19 : FVec F S4x43 .f32 := Host.absf main_arg4
  let main_cst_6 : FVec F S_ .f32 := constant S_ .f32 0x7F800000#32
  let main_v20 : FVec F S4x43 .f32 := broadcastInDim S4x43 ![] bcast_S_S4x43 main_cst_6
  let main_v21 : IVec S4x43 1 := cmpf .olt main_v19 main_v20
  let main_c_7 : IVec S_ 1 := constantI S_ 1 1#1
  let main_v22 : IVec S_ 1 := (fun x v => Host.reduce IntOp.andi x v reducesTo_S4x43_S_d0_1 h_S_) main_v21 main_c_7
  let main_v23 : IVec S_ 1 := andi main_v18 main_v22
  let main_v24 : FVec F S4x43x43 .f32 := Host.absf main_arg5
  let main_cst_8 : FVec F S_ .f32 := constant S_ .f32 0x7F800000#32
  let main_v25 : FVec F S4x43x43 .f32 := broadcastInDim S4x43x43 ![] bcast_S_S4x43x43 main_cst_8
  let main_v26 : IVec S4x43x43 1 := cmpf .olt main_v24 main_v25
  let main_c_9 : IVec S_ 1 := constantI S_ 1 1#1
  let main_v27 : IVec S_ 1 := (fun x v => Host.reduce IntOp.andi x v reducesTo_S4x43x43_S_d0_1_2 h_S_) main_v26 main_c_9
  let main_v28 : IVec S_ 1 := andi main_v23 main_v27
  let main_v29 : FVec F S4x43 .f32 := Host.absf main_arg6
  let main_cst_10 : FVec F S_ .f32 := constant S_ .f32 0x7F800000#32
  let main_v30 : FVec F S4x43 .f32 := broadcastInDim S4x43 ![] bcast_S_S4x43 main_cst_10
  let main_v31 : IVec S4x43 1 := cmpf .olt main_v29 main_v30
  let main_c_11 : IVec S_ 1 := constantI S_ 1 1#1
  let main_v32 : IVec S_ 1 := (fun x v => Host.reduce IntOp.andi x v reducesTo_S4x43_S_d0_1 h_S_) main_v31 main_c_11
  let main_v33 : IVec S_ 1 := andi main_v28 main_v32
  main_v33

def fn {F : FTy → Type} [FloatOps F] (main_arg0 : FVec F S262144x43 .f32) (main_arg1 : FVec F S262144x43 .f32) (main_arg2 : FVec F S262144x43 .f32) (main_arg3 : FVec F S4x43x43 .f32) (main_arg4 : FVec F S4x43 .f32) (main_arg5 : FVec F S4x43x43 .f32) (main_arg6 : FVec F S4x43 .f32) : IVec S_ 1 :=
  let main_v0 : FVec F S262144x43 .f32 := Host.absf main_arg0
  let main_cst : FVec F S_ .f32 := constant S_ .f32 0x7F800000#32
  let main_v1 : FVec F S262144x43 .f32 := broadcastInDim S262144x43 ![] bcast_S_S262144x43 main_cst
  let main_v2 : IVec S262144x43 1 := cmpf .olt main_v0 main_v1
  let main_c : IVec S_ 1 := constantI S_ 1 1#1
  let main_v3 : IVec S_ 1 := (fun x v => Host.reduce IntOp.andi x v reducesTo_S262144x43_S_d0_1 h_S_) main_v2 main_c
  let main_v4 : FVec F S262144x43 .f32 := Host.absf main_arg1
  let main_cst_0 : FVec F S_ .f32 := constant S_ .f32 0x7F800000#32
  let main_v5 : FVec F S262144x43 .f32 := broadcastInDim S262144x43 ![] bcast_S_S262144x43 main_cst_0
  let main_v6 : IVec S262144x43 1 := cmpf .olt main_v4 main_v5
  let main_c_1 : IVec S_ 1 := constantI S_ 1 1#1
  let main_v7 : IVec S_ 1 := (fun x v => Host.reduce IntOp.andi x v reducesTo_S262144x43_S_d0_1 h_S_) main_v6 main_c_1
  let main_v8 : IVec S_ 1 := andi main_v3 main_v7
  let main_v9 : FVec F S262144x43 .f32 := Host.absf main_arg2
  let main_cst_2 : FVec F S_ .f32 := constant S_ .f32 0x7F800000#32
  let main_v10 : FVec F S262144x43 .f32 := broadcastInDim S262144x43 ![] bcast_S_S262144x43 main_cst_2
  let main_v11 : IVec S262144x43 1 := cmpf .olt main_v9 main_v10
  let main_c_3 : IVec S_ 1 := constantI S_ 1 1#1
  let main_v12 : IVec S_ 1 := (fun x v => Host.reduce IntOp.andi x v reducesTo_S262144x43_S_d0_1 h_S_) main_v11 main_c_3
  let main_v13 : IVec S_ 1 := andi main_v8 main_v12
  let main_v14 : FVec F S4x43x43 .f32 := Host.absf main_arg3
  let main_cst_4 : FVec F S_ .f32 := constant S_ .f32 0x7F800000#32
  let main_v15 : FVec F S4x43x43 .f32 := broadcastInDim S4x43x43 ![] bcast_S_S4x43x43 main_cst_4
  let main_v16 : IVec S4x43x43 1 := cmpf .olt main_v14 main_v15
  fn_part1 (F := F) main_arg4 main_arg5 main_arg6 main_v13 main_v16
-- ==== Kernel.lean ====
abbrev S262144x43 : Shape := ⟨2, ![262144, 43]⟩
abbrev S4x43x43 : Shape := ⟨3, ![4, 43, 43]⟩
abbrev S4x43 : Shape := ⟨2, ![4, 43]⟩
abbrev S4 : Shape := ⟨1, ![4]⟩
abbrev S4x1x1 : Shape := ⟨3, ![4, 1, 1]⟩
abbrev S_ : Shape := ⟨0, ![]⟩
abbrev S4x43x128 : Shape := ⟨3, ![4, 43, 128]⟩
abbrev S43x4x128 : Shape := ⟨3, ![43, 4, 128]⟩
abbrev S43x512 : Shape := ⟨2, ![43, 512]⟩
abbrev S4x1 : Shape := ⟨2, ![4, 1]⟩
abbrev S4x128 : Shape := ⟨2, ![4, 128]⟩
abbrev S1x512 : Shape := ⟨2, ![1, 512]⟩
abbrev S2048x43 : Shape := ⟨2, ![2048, 43]⟩
abbrev S2048x512 : Shape := ⟨2, ![2048, 512]⟩

abbrev nBuf : Space → Nat
  | .hbm => 39
  | .vmem => 11
  | .smem => 0
  | _ => 0

abbrev bufTy : (tb : Table) → Fin (tcTables nBuf tb) → BufTy
  | .hbm, ⟨0, _⟩ => ⟨S262144x43, .f32⟩
  | .hbm, ⟨1, _⟩ => ⟨S262144x43, .f32⟩
  | .hbm, ⟨2, _⟩ => ⟨S262144x43, .f32⟩
  | .hbm, ⟨3, _⟩ => ⟨S4x43x43, .f32⟩
  | .hbm, ⟨4, _⟩ => ⟨S4x43, .f32⟩
  | .hbm, ⟨5, _⟩ => ⟨S4x43x43, .f32⟩
  | .hbm, ⟨6, _⟩ => ⟨S4x43, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4x43x43, .f32⟩
  | .hbm, ⟨11, _⟩ => ⟨S4x43x43, .f32⟩
  | .hbm, ⟨12, _⟩ => ⟨S4x1x1, .f32⟩
  | .hbm, ⟨13, _⟩ => ⟨S4x43x43, .f32⟩
  | .hbm, ⟨14, _⟩ => ⟨S4x43x43, .f32⟩
  | .hbm, ⟨15, _⟩ => ⟨S_, .i32⟩
  | .hbm, ⟨16, _⟩ => ⟨S_, .f32⟩
  | .hbm, ⟨17, _⟩ => ⟨S4x43x128, .f32⟩
  | .hbm, ⟨18, _⟩ => ⟨S43x4x128, .f32⟩
  | .hbm, ⟨19, _⟩ => ⟨S43x512, .f32⟩
  | .hbm, ⟨20, _⟩ => ⟨S43x512, .bf16⟩
  | .hbm, ⟨21, _⟩ => ⟨S4x1x1, .f32⟩
  | .hbm, ⟨22, _⟩ => ⟨S4x43x43, .f32⟩
  | .hbm, ⟨23, _⟩ => ⟨S4x43x43, .f32⟩
  | .hbm, ⟨24, _⟩ => ⟨S_, .i32⟩
  | .hbm, ⟨25, _⟩ => ⟨S_, .f32⟩
  | .hbm, ⟨26, _⟩ => ⟨S4x43x128, .f32⟩
  | .hbm, ⟨27, _⟩ => ⟨S43x4x128, .f32⟩
  | .hbm, ⟨28, _⟩ => ⟨S43x512, .f32⟩
  | .hbm, ⟨29, _⟩ => ⟨S43x512, .bf16⟩
  | .hbm, ⟨30, _⟩ => ⟨S4x1, .f32⟩
  | .hbm, ⟨31, _⟩ => ⟨S4x43, .f32⟩
  | .hbm, ⟨32, _⟩ => ⟨S4x43, .f32⟩
  | .hbm, ⟨33, _⟩ => ⟨S4x43, .f32⟩
  | .hbm, ⟨34, _⟩ => ⟨S_, .i32⟩
  | .hbm, ⟨35, _⟩ => ⟨S_, .f32⟩
  | .hbm, ⟨36, _⟩ => ⟨S4x128, .f32⟩
  | .hbm, ⟨37, _⟩ => ⟨S1x512, .f32⟩
  | .hbm, ⟨38, _⟩ => ⟨S262144x43, .f32⟩
  | .local _ .vmem, ⟨0, _⟩ => ⟨S2048x43, .f32⟩
  | .local _ .vmem, ⟨1, _⟩ => ⟨S2048x43, .f32⟩
  | .local _ .vmem, ⟨2, _⟩ => ⟨S2048x43, .f32⟩
  | .local _ .vmem, ⟨3, _⟩ => ⟨S2048x43, .f32⟩
  | .local _ .vmem, ⟨4, _⟩ => ⟨S2048x43, .f32⟩
  | .local _ .vmem, ⟨5, _⟩ => ⟨S2048x43, .f32⟩
  | .local _ .vmem, ⟨6, _⟩ => ⟨S43x512, .bf16⟩
  | .local _ .vmem, ⟨7, _⟩ => ⟨S43x512, .bf16⟩
  | .local _ .vmem, ⟨8, _⟩ => ⟨S1x512, .f32⟩
  | .local _ .vmem, ⟨9, _⟩ => ⟨S2048x43, .f32⟩
  | .local _ .vmem, ⟨10, _⟩ => ⟨S2048x43, .f32⟩
  | _, _ => ⟨S262144x43, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x43 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x43 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x43 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S43x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S43x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x43 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x43x43_S4x43x43_0_2_1 : S4x43x43.Transposes [0, 2, 1] S4x43x43
  shapeCasts_S4_S4x1x1 : S4.ShapeCasts S4x1x1
  bcast_S4x1x1_S4x43x43_0_1_2 : S4x1x1.BroadcastsInDim S4x43x43 (![0, 1, 2] : Fin 3 → Fin S4x43x43.rank)
  pads_S4x43x43_S4x43x128_000_000_0850 : S4x43x43.Pads (![0, 0, 0] : Fin 3 → Nat) ![0, 0, 85] ![0, 0, 0] S4x43x128
  h_S_ : 0 < S_.numel
  transposes_S4x43x128_S43x4x128_1_0_2 : S4x43x128.Transposes [1, 0, 2] S43x4x128
  shapeCasts_S43x4x128_S43x512 : S43x4x128.ShapeCasts S43x512
  bitsLt_bf16_f32 : FTy.bits .bf16 < FTy.bits .f32
  shapeCasts_S4_S4x1 : S4.ShapeCasts S4x1
  bcast_S4x1_S4x43_0_1 : S4x1.BroadcastsInDim S4x43 (![0, 1] : Fin 2 → Fin S4x43.rank)
  pads_S4x43_S4x128_000_0850 : S4x43.Pads (![0, 0] : Fin 2 → Nat) ![0, 85] ![0, 0] S4x128
  shapeCasts_S4x128_S1x512 : S4x128.ShapeCasts S1x512
  inb_S2048x43_S2048x43_0_0 : ∀ a, (![0, 0] : Fin 2 → Nat) a + S2048x43.size a ≤ S2048x43.size a
  h_S2048x43 : 0 < S2048x43.numel
  inb_S43x512_S43x512_0_0 : ∀ a, (![0, 0] : Fin 2 → Nat) a + S43x512.size a ≤ S43x512.size a
  h_S43x512 : 0 < S43x512.numel
  shapeCasts_S43x512_S43x512 : S43x512.ShapeCasts S43x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x43 : S2048x512.Slices ![0, 0] S2048x43
  slices_S2048x512_o0_128_S2048x43 : S2048x512.Slices ![0, 128] S2048x43
  slices_S2048x512_o0_256_S2048x43 : S2048x512.Slices ![0, 256] S2048x43
  slices_S2048x512_o0_384_S2048x43 : S2048x512.Slices ![0, 384] S2048x43
  dot_S2048x43_S43x512_S2048x512_1_0_0_1_n_n_wf : DotDims.WF S2048x43 S43x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x43.size a ≤ S262144x43.size a
  hwx0_0 : ∀ i : grid0.Coords, EltTy.bits .f32 = 32 ∨ (Rect.block (s := S262144x43) S2048x43.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x43.size a ≤ S262144x43.size a
  hwx0_1 : ∀ i : grid0.Coords, EltTy.bits .f32 = 32 ∨ (Rect.block (s := S262144x43) S2048x43.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x43.size a ≤ S262144x43.size a
  hwx0_2 : ∀ i : grid0.Coords, EltTy.bits .f32 = 32 ∨ (Rect.block (s := S262144x43) S2048x43.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S43x512.size a ≤ S43x512.size a
  hwx0_3 : ∀ i : grid0.Coords, EltTy.bits .bf16 = 32 ∨ (Rect.block (s := S43x512) S43x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S43x512.size a ≤ S43x512.size a
  hwx0_4 : ∀ i : grid0.Coords, EltTy.bits .bf16 = 32 ∨ (Rect.block (s := S43x512) S43x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x43.size a ≤ S262144x43.size a
  hwx0_6 : ∀ i : grid0.Coords, EltTy.bits .f32 = 32 ∨ (Rect.block (s := S262144x43) S2048x43.size (cc0_transform_6 i) (hinb0_6 i)).WholeWords (EltTy.packing .f32)

variable [Facts₀]

def dot_S2048x43_S43x512_S2048x512_1_0_0_1_n_n : DotDims S2048x43 S43x512 S2048x512 where
  lhsContracting := [1]
  rhsContracting := [0]
  lhsNonContracting := [0]
  rhsNonContracting := [1]
  lhsBatch := []
  rhsBatch := []
  wf := dot_S2048x43_S43x512_S2048x512_1_0_0_1_n_n_wf

abbrev win0_0 : Pipeline.Window sig grid0 :=
  Pipeline.Window.ofSpec (Memref.whole main_arg0) S2048x43.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x43.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x43.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S43x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S43x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2048x43.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x43 : Shape := ⟨2, ![262144, 43]⟩
abbrev S4x43x43 : Shape := ⟨3, ![4, 43, 43]⟩
abbrev S4x43 : Shape := ⟨2, ![4, 43]⟩
abbrev S4x43x262144 : Shape := ⟨3, ![4, 43, 262144]⟩
abbrev S4x262144x43 : Shape := ⟨3, ![4, 262144, 43]⟩
abbrev S4x1x43 : Shape := ⟨3, ![4, 1, 43]⟩
abbrev S1x262144x43 : Shape := ⟨3, ![1, 262144, 43]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S262144x43, .f32⟩
  | .hbm, ⟨1, _⟩ => ⟨S262144x43, .f32⟩
  | .hbm, ⟨2, _⟩ => ⟨S262144x43, .f32⟩
  | .hbm, ⟨3, _⟩ => ⟨S4x43x43, .f32⟩
  | .hbm, ⟨4, _⟩ => ⟨S4x43, .f32⟩
  | .hbm, ⟨5, _⟩ => ⟨S4x43x43, .f32⟩
  | .hbm, ⟨6, _⟩ => ⟨S4x43, .f32⟩
  | .hbm, ⟨7, _⟩ => ⟨S4x43x262144, .f32⟩
  | .hbm, ⟨8, _⟩ => ⟨S4x262144x43, .f32⟩
  | .hbm, ⟨9, _⟩ => ⟨S4x1x43, .f32⟩
  | .hbm, ⟨10, _⟩ => ⟨S4x262144x43, .f32⟩
  | .hbm, ⟨11, _⟩ => ⟨S4x262144x43, .f32⟩
  | .hbm, ⟨12, _⟩ => ⟨S4x43x262144, .f32⟩
  | .hbm, ⟨13, _⟩ => ⟨S4x262144x43, .f32⟩
  | .hbm, ⟨14, _⟩ => ⟨S4x1x43, .f32⟩
  | .hbm, ⟨15, _⟩ => ⟨S4x262144x43, .f32⟩
  | .hbm, ⟨16, _⟩ => ⟨S4x262144x43, .f32⟩
  | .hbm, ⟨17, _⟩ => ⟨S4x262144x43, .f32⟩
  | .hbm, ⟨18, _⟩ => ⟨S1x262144x43, .f32⟩
  | .hbm, ⟨19, _⟩ => ⟨S262144x43, .f32⟩
  | .hbm, ⟨20, _⟩ => ⟨S262144x43, .f32⟩
  | .hbm, ⟨21, _⟩ => ⟨S262144x43, .f32⟩
  | .hbm, ⟨22, _⟩ => ⟨S_, .f32⟩
  | .hbm, ⟨23, _⟩ => ⟨S262144x43, .f32⟩
  | .hbm, ⟨24, _⟩ => ⟨S262144x43, .f32⟩
  | .hbm, ⟨25, _⟩ => ⟨S_, .f32⟩
  | .hbm, ⟨26, _⟩ => ⟨S262144x43, .f32⟩
  | .hbm, ⟨27, _⟩ => ⟨S262144x43, .f32⟩
  | .hbm, ⟨28, _⟩ => ⟨S1x262144x43, .f32⟩
  | .hbm, ⟨29, _⟩ => ⟨S262144x43, .f32⟩
  | .hbm, ⟨30, _⟩ => ⟨S262144x43, .f32⟩
  | .hbm, ⟨31, _⟩ => ⟨S262144x43, .f32⟩
  | .hbm, ⟨32, _⟩ => ⟨S_, .f32⟩
  | .hbm, ⟨33, _⟩ => ⟨S262144x43, .f32⟩
  | .hbm, ⟨34, _⟩ => ⟨S262144x43, .f32⟩
  | .hbm, ⟨35, _⟩ => ⟨S_, .f32⟩
  | .hbm, ⟨36, _⟩ => ⟨S262144x43, .f32⟩
  | .hbm, ⟨37, _⟩ => ⟨S262144x43, .f32⟩
  | .hbm, ⟨38, _⟩ => ⟨S1x262144x43, .f32⟩
  | .hbm, ⟨39, _⟩ => ⟨S262144x43, .f32⟩
  | .hbm, ⟨40, _⟩ => ⟨S262144x43, .f32⟩
  | .hbm, ⟨41, _⟩ => ⟨S1x262144x43, .f32⟩
  | .hbm, ⟨42, _⟩ => ⟨S262144x43, .f32⟩
  | .hbm, ⟨43, _⟩ => ⟨S262144x43, .f32⟩
  | .hbm, ⟨44, _⟩ => ⟨S262144x43, .f32⟩
  | .hbm, ⟨45, _⟩ => ⟨S_, .f32⟩
  | .hbm, ⟨46, _⟩ => ⟨S262144x43, .f32⟩
  | .hbm, ⟨47, _⟩ => ⟨S262144x43, .f32⟩
  | .hbm, ⟨48, _⟩ => ⟨S_, .f32⟩
  | .hbm, ⟨49, _⟩ => ⟨S262144x43, .f32⟩
  | .hbm, ⟨50, _⟩ => ⟨S262144x43, .f32⟩
  | .hbm, ⟨51, _⟩ => ⟨S262144x43, .f32⟩
  | .hbm, ⟨52, _⟩ => ⟨S262144x43, .f32⟩
  | .hbm, ⟨53, _⟩ => ⟨S262144x43, .f32⟩
  | .hbm, ⟨54, _⟩ => ⟨S262144x43, .f32⟩
  | .hbm, ⟨55, _⟩ => ⟨S262144x43, .f32⟩
  | _, _ => ⟨S262144x43, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x43x262144_S4x262144x43_0_2_1 : S4x43x262144.Transposes [0, 2, 1] S4x262144x43
  bcast_S4x43_S4x1x43_0_2 : S4x43.BroadcastsInDim S4x1x43 (![0, 2] : Fin 2 → Fin S4x1x43.rank)
  bcast_S4x1x43_S4x262144x43_0_1_2 : S4x1x43.BroadcastsInDim S4x262144x43 (![0, 1, 2] : Fin 3 → Fin S4x262144x43.rank)
  slices_S4x262144x43_S1x262144x43_0_0_0 : S4x262144x43.Slices ![0, 0, 0] S1x262144x43
  shapeCasts_S1x262144x43_S262144x43 : S1x262144x43.ShapeCasts S262144x43
  bcast_S_S262144x43 : S_.BroadcastsInDim S262144x43 (![] : Fin 0 → Fin S262144x43.rank)
  slices_S4x262144x43_S1x262144x43_1_0_0 : S4x262144x43.Slices ![1, 0, 0] S1x262144x43
  slices_S4x262144x43_S1x262144x43_2_0_0 : S4x262144x43.Slices ![2, 0, 0] S1x262144x43
  slices_S4x262144x43_S1x262144x43_3_0_0 : S4x262144x43.Slices ![3, 0, 0] S1x262144x43
  dot_S4x43x43_S262144x43_S4x43x262144_2_1_01_0_n_n_wf : DotDims.WF S4x43x43 S262144x43 S4x43x262144 [2] [1] [0, 1] [0] [] []

variable [Facts₀]

def dot_S4x43x43_S262144x43_S4x43x262144_2_1_01_0_n_n : DotDims S4x43x43 S262144x43 S4x43x262144 where
  lhsContracting := [2]
  rhsContracting := [1]
  lhsNonContracting := [0, 1]
  rhsNonContracting := [0]
  lhsBatch := []
  rhsBatch := []
  wf := dot_S4x43x43_S262144x43_S4x43x262144_2_1_01_0_n_n_wf

class Facts : Prop extends Facts₀ where

variable [Facts]
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«131802_j37993280700890_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibLogisticTanhCell.lean ====
/-
  The algebra of one LSTM cell entry, on the extended reals, over an abstract contracted index type `Fin K`.

  Two spellings of one gate.  The logistic gate is `σ(z) = 1 / (1 + e^(−z))`.  Since
  `tanh(z/2) = (e^(z/2) − e^(−z/2)) / (e^(z/2) + e^(−z/2)) = (1 − e^(−z)) / (1 + e^(−z))`, one has
  `1 + tanh(z/2) = 2 / (1 + e^(−z))`, that is `σ(z) = ½ · (1 + tanh(z/2))` for every real `z`.

  Two spellings of one pre-activation.  With a real scale `s`, real rows `x`, `h`, real weight rows `w`, `u` and real
  biases `b`, `b'`:
      (Σ_k x_k · (w_k · s) + Σ_k h_k · (u_k · s)) + (b + b') · s  =  s · ((Σ_k w_k · x_k + b) + (Σ_k u_k · h_k + b')).
  This is distributivity of `s` over the sums, which holds for real numbers and fails at the infinities of the extended
  reals, so it is stated for real-valued data: the entries are finite.

  With `s = ½` on the three logistic gates and `s = 1` on the candidate gate, the cell computed from scaled
  pre-activations through `½ · (1 + tanh ·)` is the cell computed from the plain pre-activations through `σ`.
-/
import Idealize.ShloMosaic.PureOps.Ideal
import Mathlib.Analysis.SpecialFunctions.Trigonometric.DerivHyp

noncomputable section

namespace Cert.LibLogisticTanhCell

open Idealize.ShloMosaic

/-! ## The two float words -/

/-- The f32 word `0x3F800000` denotes the real `1`. -/
theorem word_one : Ideal.ofBits .f32 0x3F800000#32 = ((1 : ℝ) : EReal) := by
  simp [Ideal.ofBits, Ideal.ieee, -EReal.coe_mul]; norm_num

/-- The f32 word `0x3F000000` denotes the real `1/2`. -/
theorem word_half : Ideal.ofBits .f32 0x3F000000#32 = ((1 / 2 : ℝ) : EReal) := by
  simp [Ideal.ofBits, Ideal.ieee, -EReal.coe_mul]; norm_num

/-! ## A finite real sum read as extended reals -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The gate, in its two spellings -/

/-- The logistic gate `1 / (1 + e^(−z))`, with the ideal quotient and the word of `1`. -/
def sig (z : EReal) : EReal :=
  Ideal.div (Ideal.ofBits .f32 0x3F800000#32) (Ideal.ofBits .f32 0x3F800000#32 + Ideal.exp (-z))

/-- The gate `½ · (1 + tanh y)`, with the words of `½` and `1`. -/
def tgate (y : EReal) : EReal :=
  Ideal.ofBits .f32 0x3F000000#32 * (Ideal.ofBits .f32 0x3F800000#32 + Ideal.tanh y)

/-- Over the reals, `½ · (1 + tanh (r/2)) = 1 / (1 + e^(−r))`. -/
theorem real_gate (r : ℝ) : (1 / 2 : ℝ) * (1 + Real.tanh (r / 2)) = 1 * (1 / (1 + Real.exp (-r))) := by
  have he : 0 < Real.exp (r / 2) := Real.exp_pos _
  have hf : 0 < Real.exp (-(r / 2)) := Real.exp_pos _
  have hef : Real.exp (r / 2) * Real.exp (-(r / 2)) = 1 := by rw [← Real.exp_add]; simp
  have hr : Real.exp (-r) = Real.exp (-(r / 2)) * Real.exp (-(r / 2)) := by rw [← Real.exp_add]; congr 1; ring
  rw [Real.tanh_eq_sinh_div_cosh, Real.sinh_eq, Real.cosh_eq, hr]
  set e := Real.exp (r / 2)
  set f := Real.exp (-(r / 2))
  have hne : e + f ≠ 0 := by positivity
  have hne2 : 1 + f * f ≠ 0 := by positivity
  field_simp
  nlinarith [hef, he, hf]

/-- At a real argument the two spellings of the gate agree: `½ · (1 + tanh (r/2)) = σ(r)`. -/
theorem tgate_half (r : ℝ) : tgate ((((1 / 2 : ℝ) * r : ℝ)) : EReal) = sig (r : EReal) := by
  have hpos : (1 + Real.exp (-r)) ≠ 0 := by positivity
  unfold tgate sig
  rw [word_one, word_half, Ideal.tanh_coe, ← EReal.coe_neg, Ideal.exp_coe, ← EReal.coe_add, ← EReal.coe_add,
    Ideal.div_coe hpos, ← EReal.coe_mul, ← EReal.coe_mul]
  congr 1
  rw [show (1 / 2 : ℝ) * r = r / 2 by ring]
  exact real_gate r

/-! ## The pre-activation, in its two arrangements -/

variable {K : ℕ}

/-- The reference's arrangement: `(Σ_k w_k · x_k + b) + (Σ_k u_k · h_k + b')`, a real number. -/
theorem pre_plain (x h w u : Fin K → ℝ) (b b' : ℝ) :
    ((∑ k, (w k : EReal) * (x k : EReal)) + (b : EReal)) + ((∑ k, (u k : EReal) * (h k : EReal)) + (b' : EReal))
      = ((((∑ k, w k * x k) + b) + ((∑ k, u k * h k) + b') : ℝ) : EReal) := by
  simp only [EReal.coe_add, coe_sum, EReal.coe_mul]

/-- The kernel's arrangement with the scale `s` folded into the weights and the summed biases:
    `(Σ_k x_k · (w_k · s) + Σ_k h_k · (u_k · s)) + (b + b') · s = s · ((Σ_k w_k · x_k + b) + (Σ_k u_k · h_k + b'))`. -/
theorem pre_scaled (x h w u : Fin K → ℝ) (b b' s : ℝ) :
    ((∑ k, (x k : EReal) * ((w k : EReal) * (s : EReal))) + (∑ k, (h k : EReal) * ((u k : EReal) * (s : EReal))))
        + ((b : EReal) + (b' : EReal)) * (s : EReal)
      = ((s * (((∑ k, w k * x k) + b) + ((∑ k, u k * h k) + b')) : ℝ) : EReal) := by
  have e : s * (((∑ k, w k * x k) + b) + ((∑ k, u k * h k) + b'))
      = ((∑ k, x k * (w k * s)) + (∑ k, h k * (u k * s))) + (b + b') * s := by
    rw [mul_add, mul_add, mul_add, Finset.mul_sum, Finset.mul_sum]
    have e1 : ∀ k, s * (w k * x k) = x k * (w k * s) := fun k => by ring
    have e2 : ∀ k, s * (u k * h k) = h k * (u k * s) := fun k => by ring
    simp only [e1, e2]
    ring
  rw [e]
  simp only [EReal.coe_add, coe_sum, EReal.coe_mul]

/-! ## The cell -/

/-- The cell from scaled pre-activations `y` through `½ · (1 + tanh ·)` (the candidate gate through `tanh` alone). -/
def cellTanh (y0 y1 y2 y3 c : EReal) : EReal :=
  tgate y3 * Ideal.tanh (tgate y1 * c + tgate y0 * Ideal.tanh y2)

/-- The cell from plain pre-activations `z` through the logistic gate. -/
def cellSig (z0 z1 z2 z3 c : EReal) : EReal :=
  sig z3 * Ideal.tanh (sig z1 * c + sig z0 * Ideal.tanh z2)

/-- Halved real pre-activations on the three logistic gates, the plain one on the candidate gate: one cell. -/
theorem cell_eq (r0 r1 r2 r3 : ℝ) (c : EReal) :
    cellTanh ((((1 / 2 : ℝ) * r0 : ℝ)) : EReal) ((((1 / 2 : ℝ) * r1 : ℝ)) : EReal) ((((1 : ℝ) * r2 : ℝ)) : EReal)
        ((((1 / 2 : ℝ) * r3 : ℝ)) : EReal) c
      = cellSig (r0 : EReal) (r1 : EReal) (r2 : EReal) (r3 : EReal) c := by
  unfold cellTanh cellSig
  rw [tgate_half, tgate_half, tgate_half, one_mul]

end Cert.LibLogisticTanhCell

end
-- ==== Proof.KernelEntry.lean ====
/-
  One grid point's block of the kernel, entry by entry, on the extended reals.

  The body multiplies a block of rows `X`, `H` : [2048, 43] into the packed weights `WX`, `WH` : [43, 512] and adds the
  packed bias row `B` : [1, 512] down the rows:
      pre (p, n) = (Σ_k X (p, k) · WX (k, n) + Σ_k H (p, k) · WH (k, n)) + B (0, n).
  The four gates sit in four lane banks of width 128: gate `g` of output column `o < 43` is lane `128 · g + o`.
  Entry `(p, o)` of the block the body stores is the cell
      ½(1 + tanh pre(p, 384 + o)) · tanh( ½(1 + tanh pre(p, 128 + o)) · C (p, o) + ½(1 + tanh pre(p, o)) · tanh pre(p, 256 + o) ).
-/
import proofs.«131802_j37993280700890_2_alg».proof.Proof.Gen.KernelIdeal.Value
import proofs.«131802_j37993280700890_2_alg».proof.Proof.LibMatmul2D
import proofs.«131802_j37993280700890_2_alg».proof.Proof.LibLogisticTanhCell
import Idealize.ShloMosaic.Lib.ValueLayout
import Idealize.ShloMosaic.Lib.ValueIdx
import Idealize.ShloMosaic.Lib.Pipeline.Value

noncomputable section

namespace Cert.KernelIdeal.CellValue

open Cert.KernelIdeal Cert.KernelIdeal.Gen Idealize.ShloMosaic Idealize.ShloMosaic.ValueIdx Cert.LibLogisticTanhCell

/-- Lane `128 · g + o` of the packed width 512: gate `g`'s bank, column `o`. -/
abbrev lane (g : Fin 4) (o : Fin 43) : Fin 512 := ⟨128 * g.val + o.val, by have := g.isLt; have := o.isLt; omega⟩

/-- The packed pre-activation of row `p` at lane `n`, from the row blocks, the packed weights and the packed bias row. -/
def packedPre (X H : S2048x43.Idx → EReal) (WX WH : S43x512.Idx → EReal) (B : S1x512.Idx → EReal) (p : Fin 2048) (n : Fin 512) : EReal :=
  (∑ k : Fin 43, X (ix2 p k) * WX (ix2 k n) + ∑ k : Fin 43, H (ix2 p k) * WH (ix2 k n)) + B (ix2 (0 : Fin 1) n)

/-- The body's packed pre-activation (both products into the zero accumulator, added, plus the bias row repeated down
    the rows) at entry `(p, n)`. -/
theorem pay2_at (P0 P1 : Vec Ideal S2048x43 .f32) (P2 P3 : Vec Ideal S43x512 .bf16) (P4 : Vec Ideal S1x512 .f32)
    (p : Fin 2048) (n : Fin 512) :
    k0_pay2 (F := Ideal) P0 P1 P2 P3 P4 (ix2 p n) = packedPre P0 P1 P2 P3 P4 p n := by
  unfold k0_pay2 packedPre
  rw [addf_apply, addf_apply, shapeCast_self, shapeCast_self, shapeCast_self]
  rw [broadcastTo_1b_ab_apply]
  congr 1
  congr 1
  · exact Cert.LibMatmul2D.rows_cols _ none _ _ p n
  · exact Cert.LibMatmul2D.rows_cols _ none _ _ p n

/-- The block the body stores, at block index `(p, o)`: the cell of the four gates' packed pre-activations of row `p`
    at column `o`, and the state block `C` there. -/
theorem block_at (P0 P1 : Vec Ideal S2048x43 .f32) (P2 P3 : Vec Ideal S43x512 .bf16) (P4 : Vec Ideal S1x512 .f32)
    (P5 : Vec Ideal S2048x43 .f32) (p : Fin 2048) (o : Fin 43) :
    Cert.KernelIdeal.Value.E6 (F := Ideal) P0 P1 P2 P3 P4 P5 (ix2 p o)
      = cellTanh (packedPre P0 P1 P2 P3 P4 p (lane 0 o)) (packedPre P0 P1 P2 P3 P4 p (lane 1 o))
          (packedPre P0 P1 P2 P3 P4 p (lane 2 o)) (packedPre P0 P1 P2 P3 P4 p (lane 3 o)) (P5 (ix2 p o)) := by
  have i0 : Cert.KernelIdeal.Value.ix6_0 (ix2 p o) = ix2 p (lane 3 o) := by
    funext a; apply Fin.ext
    match a with
    | ⟨0, _⟩ => rfl
    | ⟨1, _⟩ => show o.val + 384 = 128 * 3 + o.val; omega
  have i1 : Cert.KernelIdeal.Value.ix6_1 (ix2 p o) = ix2 p (lane 1 o) := by
    funext a; apply Fin.ext
    match a with
    | ⟨0, _⟩ => rfl
    | ⟨1, _⟩ => show o.val + 128 = 128 * 1 + o.val; omega
  have i2 : Cert.KernelIdeal.Value.ix6_2 (ix2 p o) = ix2 p o := by
    funext a; apply Fin.ext
    match a with
    | ⟨0, _⟩ => rfl
    | ⟨1, _⟩ => rfl
  have i3 : Cert.KernelIdeal.Value.ix6_3 (ix2 p o) = ix2 p (lane 0 o) := by
    funext a; apply Fin.ext
    match a with
    | ⟨0, _⟩ => rfl
    | ⟨1, _⟩ => show o.val = 128 * 0 + o.val; omega
  have i4 : Cert.KernelIdeal.Value.ix6_4 (ix2 p o) = ix2 p (lane 2 o) := by
    funext a; apply Fin.ext
    match a with
    | ⟨0, _⟩ => rfl
    | ⟨1, _⟩ => show o.val + 256 = 128 * 2 + o.val; omega
  show FloatOps.mulf (FloatOps.mulf (Scalar.ofBits .f32 0x3F000000#32) (FloatOps.addf (Scalar.ofBits .f32 0x3F800000#32) (FloatOps.tanh ((k0_pay2 P0 P1 P2 P3 P4) (Cert.KernelIdeal.Value.ix6_0 (ix2 p o)))))) (FloatOps.tanh (FloatOps.addf (FloatOps.mulf (FloatOps.mulf (Scalar.ofBits .f32 0x3F000000#32) (FloatOps.addf (Scalar.ofBits .f32 0x3F800000#32) (FloatOps.tanh ((k0_pay2 P0 P1 P2 P3 P4) (Cert.KernelIdeal.Value.ix6_1 (ix2 p o)))))) (P5 (Cert.KernelIdeal.Value.ix6_2 (ix2 p o)))) (FloatOps.mulf (FloatOps.mulf (Scalar.ofBits .f32 0x3F000000#32) (FloatOps.addf (Scalar.ofBits .f32 0x3F800000#32) (FloatOps.tanh ((k0_pay2 P0 P1 P2 P3 P4) (Cert.KernelIdeal.Value.ix6_3 (ix2 p o)))))) (FloatOps.tanh ((k0_pay2 P0 P1 P2 P3 P4) (Cert.KernelIdeal.Value.ix6_4 (ix2 p o))))))) = _
  rw [i0, i1, i2, i3, i4, pay2_at, pay2_at, pay2_at, pay2_at]
  rfl

end Cert.KernelIdeal.CellValue

end
-- ==== Proof.KernelArray.lean ====
/-
  From blocks to the whole array.

  Grid point `t` (of 128) stages rows `2048 · t … 2048 · t + 2047` of `x`, `h`, `c` and the whole packed weights and bias,
  and writes back rows `2048 · t …` of the result.  Row `p` of the block is row `2048 · t + p` of the array, columns are
  kept, so the block the body stores is the restriction to those rows of ONE function of the whole arrays:
      out (b, o) = cell( pre(b, o), pre(b, 128 + o), pre(b, 256 + o), pre(b, 384 + o), c (b, o) ),
      pre (b, n) = (Σ_k x (b, k) · WX (k, n) + Σ_k h (b, k) · WH (k, n)) + B (0, n).
  The 128 blocks of 2048 rows tile the 262144 rows (row `b` lies in block `b / 2048`), so the array ends at that function.
-/
import proofs.«131802_j37993280700890_2_alg».proof.Proof.Gen.KernelIdeal.Value
import proofs.«131802_j37993280700890_2_alg».proof.Proof.KernelEntry
import Idealize.ShloMosaic.Lib.Pipeline.Value
import Idealize.ShloMosaic.Lib.ValueIdx
import Idealize.ShloMosaic.PureOps.Ideal

noncomputable section

namespace Cert.KernelIdeal.CellArray

open Cert.KernelIdeal Cert.KernelIdeal.Gen Cert.KernelIdeal.CellValue Cert.LibLogisticTanhCell
open Idealize.ShloMosaic Idealize.ShloMosaic.TcCoe Idealize.SL.Sem Idealize.ShloMosaic.ValueIdx
open Idealize.ShloMosaic.Pipeline (Dat)

/-- The packed pre-activation of array row `b` at lane `n`. -/
def arrPre (X H : S262144x43.Idx → EReal) (WX WH : S43x512.Idx → EReal) (B : S1x512.Idx → EReal) (b : Fin 262144) (n : Fin 512) : EReal :=
  (∑ k : Fin 43, X (ix2 b k) * WX (ix2 k n) + ∑ k : Fin 43, H (ix2 b k) * WH (ix2 k n)) + B (ix2 (0 : Fin 1) n)

/-- The result array as one function of the row arrays, the packed weights and the packed bias row. -/
def kernelArr (X H C : S262144x43.Idx → EReal) (WX WH : S43x512.Idx → EReal) (B : S1x512.Idx → EReal) : S262144x43.Idx → EReal := fun i =>
  cellTanh (arrPre X H WX WH B (i 0) (lane 0 (i 1))) (arrPre X H WX WH B (i 0) (lane 1 (i 1)))
    (arrPre X H WX WH B (i 0) (lane 2 (i 1))) (arrPre X H WX WH B (i 0) (lane 3 (i 1))) (C i)

/-- A block whose rows are rows `ρ` of the arrays (columns kept), with the whole packed operands, holds `kernelArr`
    at those rows. -/
theorem block_of_rows (X H C : S262144x43.Idx → EReal) (WX WH : S43x512.Idx → EReal) (B : S1x512.Idx → EReal)
    (P0 P1 P5 : Vec Ideal S2048x43 .f32) (P2 P3 : Vec Ideal S43x512 .bf16) (P4 : Vec Ideal S1x512 .f32)
    (ρ : S2048x43.Idx → S262144x43.Idx)
    (hcol : ∀ y, ρ y 1 = y 1)
    (h0 : ∀ (y : S2048x43.Idx) (k : Fin 43), P0 (ix2 (y 0) k) = X (ix2 (ρ y 0) k))
    (h1 : ∀ (y : S2048x43.Idx) (k : Fin 43), P1 (ix2 (y 0) k) = H (ix2 (ρ y 0) k))
    (h5 : ∀ y, P5 y = C (ρ y)) (h2 : P2 = WX) (h3 : P3 = WH) (h4 : P4 = B) (y : S2048x43.Idx) :
    Cert.KernelIdeal.Value.E6 (F := Ideal) P0 P1 P2 P3 P4 P5 y = kernelArr X H C WX WH B (ρ y) := by
  subst h2 h3 h4
  obtain ⟨p, q, rfl⟩ : ∃ (p : Fin 2048) (q : Fin 43), y = ix2 p q := ⟨y 0, y 1, eq_ix2 y⟩
  have h0' : ∀ k : Fin 43, P0 (ix2 p k) = X (ix2 (ρ (ix2 p q) 0) k) := fun k => h0 (ix2 p q) k
  have h1' : ∀ k : Fin 43, P1 (ix2 p k) = H (ix2 (ρ (ix2 p q) 0) k) := fun k => h1 (ix2 p q) k
  have hc : ρ (ix2 p q) 1 = q := hcol (ix2 p q)
  rw [block_at, h5 (ix2 p q)]
  unfold kernelArr arrPre packedPre
  simp only [h0', h1', hc]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row windows move with the output's row block, on column block 0; the packed
    operands stay at block (0, 0); the output's row block at point `t` is `t`. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `kernelArr` of the arrays as the region finds them. -/
theorem flushed_eq (c : Dev nD) (t : Fin cfg0.N) :
    (dats m 0 c).flushed 6 t = ((cfg0.win 6).blk t).view.read (Elt Ideal)
      (kernelArr (V m c main_arg0) (V m c main_arg1) (V m c main_arg2) (V m c main_v8) (V m c main_v15) (V m c main_v21)) := by
  rw [Cert.KernelIdeal.Value.flushed6]
  unfold out0_6
  simp only [View.ld_unit_zero (S := S2048x43) hz, View.ld_unit_zero (S := S43x512) hz, View.ld_unit_zero (S := S1x512) hz]
  obtain ⟨e00, e01, e10, e11, e20, e21, e30, e31, e40, e41, e50, e51, e60, e61⟩ := idx_facts t
  funext j
  refine (Cert.KernelIdeal.Value.canon6_eq (F := Ideal) (iblk m c 0 t) (iblk m c 1 t) (iblk m c 3 t) (iblk m c 4 t) (iblk m c 5 t) (iblk m c 2 t) j).trans ?_
  refine block_of_rows (V m c main_arg0) (V m c main_arg1) (V m c main_arg2) (V m c main_v8) (V m c main_v15) (V m c main_v21)
    (iblk m c 0 t) (iblk m c 1 t) (iblk m c 2 t) (iblk m c 3 t) (iblk m c 4 t) (iblk m c 5 t)
    (fun y => ((cfg0.win 6).blk t).view.emb y) ?_ ?_ ?_ ?_ ?_ ?_ ?_ j
  · intro y
    apply Fin.ext
    show win0_6.index t (1 : Fin 2) * 43 + 1 * (y 1).val = (y 1).val
    omega
  · intro y k
    show V m c main_arg0 (((cfg0.win 0).blk t).view.emb (ix2 (y 0) k)) = V m c main_arg0 (ix2 ((((cfg0.win 6).blk t).view.emb y) 0) k)
    congr 1
    funext a; apply Fin.ext
    match a with
    | ⟨0, _⟩ => show win0_0.index t (0 : Fin 2) * 2048 + 1 * (y 0).val = win0_6.index t (0 : Fin 2) * 2048 + 1 * (y 0).val; omega
    | ⟨1, _⟩ => show win0_0.index t (1 : Fin 2) * 43 + 1 * k.val = k.val; omega
  · intro y k
    show V m c main_arg1 (((cfg0.win 1).blk t).view.emb (ix2 (y 0) k)) = V m c main_arg1 (ix2 ((((cfg0.win 6).blk t).view.emb y) 0) k)
    congr 1
    funext a; apply Fin.ext
    match a with
    | ⟨0, _⟩ => show win0_1.index t (0 : Fin 2) * 2048 + 1 * (y 0).val = win0_6.index t (0 : Fin 2) * 2048 + 1 * (y 0).val; omega
    | ⟨1, _⟩ => show win0_1.index t (1 : Fin 2) * 43 + 1 * k.val = k.val; omega
  · intro y
    show V m c main_arg2 (((cfg0.win 2).blk t).view.emb y) = V m c main_arg2 (((cfg0.win 6).blk t).view.emb y)
    congr 1
  · funext y
    show V m c main_v8 (((cfg0.win 3).blk t).view.emb y) = V m c main_v8 y
    congr 1
    funext a; apply Fin.ext
    match a with
    | ⟨0, _⟩ => show win0_3.index t (0 : Fin 2) * 43 + 1 * (y 0).val = (y 0).val; omega
    | ⟨1, _⟩ => show win0_3.index t (1 : Fin 2) * 512 + 1 * (y 1).val = (y 1).val; omega
  · funext y
    show V m c main_v15 (((cfg0.win 4).blk t).view.emb y) = V m c main_v15 y
    congr 1
    funext a; apply Fin.ext
    match a with
    | ⟨0, _⟩ => show win0_4.index t (0 : Fin 2) * 43 + 1 * (y 0).val = (y 0).val; omega
    | ⟨1, _⟩ => show win0_4.index t (1 : Fin 2) * 512 + 1 * (y 1).val = (y 1).val; omega
  · funext y
    show V m c main_v21 (((cfg0.win 5).blk t).view.emb y) = V m c main_v21 y
    congr 1
    funext a; apply Fin.ext
    match a with
    | ⟨0, _⟩ => show win0_5.index t (0 : Fin 2) * 1 + 1 * (y 0).val = (y 0).val; omega
    | ⟨1, _⟩ => show win0_5.index t (1 : Fin 2) * 512 + 1 * (y 1).val = (y 1).val; omega

/-- An index of the array is in point `t`'s block iff each coordinate is in the block's range on its axis. -/
theorem mem_blk (t : Fin cfg0.N) (i : S262144x43.Idx) :
    i ∈ ((cfg0.win 6).blk t).view.set ↔ ∀ a : Fin 2, win0_6.index t a * S2048x43.size a ≤ (i a).val ∧ (i a).val < win0_6.index t a * S2048x43.size a + S2048x43.size a := by
  show i ∈ ((View.whole main_v22).slice (win0_6.rect t)).set ↔ _
  rw [View.set_slice_whole, Rect.mem_set_unit]
  exact Iff.rfl

/-- Every index of the array lies in some point's block: row `b` in the block of point `b / 2048`. -/
theorem cover (i : S262144x43.Idx) : ∃ t : Fin cfg0.N, (cfg0.win 6).flush t = true ∧ i ∈ ((cfg0.win 6).blk t).view.set := by
  have hi0 : (i 0).val < 262144 := (i 0).isLt
  have hi1 : (i 1).val < 43 := (i 1).isLt
  have hlt : (i 0).val / 2048 < cfg0.N := by
    show (i 0).val / 2048 < grid0.N
    rw [N_0]
    omega
  refine ⟨⟨(i 0).val / 2048, hlt⟩, flush0_6 _, ?_⟩
  rw [mem_blk]
  obtain ⟨-, -, -, -, -, -, -, -, -, -, -, -, e60, e61⟩ := idx_facts ⟨(i 0).val / 2048, hlt⟩
  have e60' : win0_6.index ⟨(i 0).val / 2048, hlt⟩ (0 : Fin 2) = (i 0).val / 2048 := e60
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    rw [e60']
    omega
  | ⟨1, _⟩ =>
    show win0_6.index ⟨(i 0).val / 2048, hlt⟩ (1 : Fin 2) * 43 ≤ (i 1).val ∧ (i 1).val < win0_6.index ⟨(i 0).val / 2048, hlt⟩ (1 : Fin 2) * 43 + 43
    rw [e61]
    omega

/-- The result array after the run is `kernelArr` of the arrays as the region finds them. -/
theorem final (c : Dev nD) : (dats m 0 c).arrAt 6 cfg0.N
    = kernelArr (V m c main_arg0) (V m c main_arg1) (V m c main_arg2) (V m c main_v8) (V m c main_v15) (V m c main_v21) :=
  (dats m 0 c).arrAt_eq_of_cover 6 _ (fun t _ => flushed_eq m c t) cover

end Cert.KernelIdeal.CellArray

end
-- ==== Proof.HostPack.lean ====
/-
  The packed operands the host prepares for the kernel, read at an index, on the extended reals.

  Weights.  From `W` : [4, 43, 43] (gate, output column, input column) the host transposes the last two axes, multiplies
  gate `g` by its scale `s_g`, pads the last axis from 43 to 128 with zeros, moves the gate axis inside and merges it with
  the lanes: the result is [43, 512], and its entry at row `k`, lane `128 · g + o` (`o < 43`) is `W (g, o, k) · s_g`.
  A change of float format is the identity here.

  Bias.  From `b`, `b'` : [4, 43] the host forms `(b + b') · s_g`, pads 43 to 128 with zeros and lays the four gates side
  by side as one row [1, 512]: its entry at lane `128 · g + o` is `(b (g, o) + b' (g, o)) · s_g`.

  The scales are the four f32 words of a literal table, `s_g` the word at position `g`.
-/
import proofs.«131802_j37993280700890_2_alg».proof.Proof.Gen.KernelIdeal.Frame
import proofs.«131802_j37993280700890_2_alg».proof.Proof.KernelEntry
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal

noncomputable section

namespace Cert.KernelIdeal.HostPack

open Cert.KernelIdeal Cert.KernelIdeal.Facts₀ Cert.KernelIdeal.CellValue
open Idealize.ShloMosaic Idealize.ShloMosaic.TcCoe Idealize.SL.Sem Idealize.ShloMosaic.StableHlo Idealize.ShloMosaic.ValueIdx

/-- The four gate scales as a vector [4], from a table of f32 words. -/
def scales (lit : Fin 4 → BitVec 32) : S4.Idx → EReal := fun i => Ideal.ofBits .f32 (lit (S4.rowMajor i))

/-- The packed weights [43, 512] of `W` : [4, 43, 43]. -/
def packW (lit : Fin 4 → BitVec 32) (W : S4x43x43.Idx → EReal) : S43x512.Idx → EReal :=
  truncf (F := Ideal) .bf16
    (shapeCast S43x512
      (transpose S43x4x128 [1, 0, 2]
        (pad S4x43x128 ![0, 0, 0] ![0, 0, 85] ![0, 0, 0]
          (mulf (F := Ideal) (φ := .f32) (transpose S4x43x43 [0, 2, 1] W transposes_S4x43x43_S4x43x43_0_2_1)
            (broadcastInDim S4x43x43 ![0, 1, 2] bcast_S4x1x1_S4x43x43_0_1_2
              (shapeCast S4x1x1 (scales lit) shapeCasts_S4_S4x1x1)))
          (sitofp (F := Ideal) .f32 (constantI S_ 32 0#32))
          pads_S4x43x43_S4x43x128_000_000_0850 h_S_)
        transposes_S4x43x128_S43x4x128_1_0_2)
      shapeCasts_S43x4x128_S43x512)
    bitsLt_bf16_f32

/-- The packed bias row [1, 512] of `b`, `b'` : [4, 43]. -/
def packB (lit : Fin 4 → BitVec 32) (b b' : S4x43.Idx → EReal) : S1x512.Idx → EReal :=
  shapeCast S1x512
    (pad S4x128 ![0, 0] ![0, 85] ![0, 0]
      (mulf (F := Ideal) (φ := .f32) (addf (F := Ideal) (φ := .f32) b b')
        (broadcastInDim S4x43 ![0, 1] bcast_S4x1_S4x43_0_1 (shapeCast S4x1 (scales lit) shapeCasts_S4_S4x1)))
      (sitofp (F := Ideal) .f32 (constantI S_ 32 0#32))
      pads_S4x43_S4x128_000_0850 h_S_)
    shapeCasts_S4x128_S1x512

/-! ## Read at an index -/

/-- The scale vector at position `g` is the table's word at `g`. -/
theorem scales_at (lit : Fin 4 → BitVec 32) (g : Fin 4) : scales lit (ix1 g) = Ideal.ofBits .f32 (lit g) := by
  unfold scales
  congr 2
  exact Fin.ext (Shape.rowMajor_val_one _)

/-- Entry (row `k`, lane `128 · g + o`) of the packed weights is `W (g, o, k) · s_g`. -/
theorem packW_at (lit : Fin 4 → BitVec 32) (W : S4x43x43.Idx → EReal) (k : Fin 43) (g : Fin 4) (o : Fin 43) :
    packW lit W (ix2 k (lane g o)) = W (ix3 g o k) * Ideal.ofBits .f32 (lit g) := by
  have hg := g.isLt
  have ho := o.isLt
  have hk := k.isLt
  unfold packW
  rw [truncf_apply]
  -- the merge of the gate axis with the lanes
  refine (shapeCast_apply _ shapeCasts_S43x4x128_S43x512 (ix2 k (lane g o))
    (ix3 k g (⟨o.val, by omega⟩ : Fin 128)) (by
      rw [Shape.rowMajor_val_three, Shape.rowMajor_val_two]
      show (k.val * 4 + g.val) * 128 + o.val = k.val * 512 + (128 * g.val + o.val)
      omega)).trans ?_
  -- the gate axis moved inside
  refine (transpose_apply [1, 0, 2] _ transposes_S4x43x128_S43x4x128_1_0_2 (ix3 k g (⟨o.val, by omega⟩ : Fin 128))
    (ix3 g k (⟨o.val, by omega⟩ : Fin 128)) (fun b => match b with
      | ⟨0, _⟩ => rfl
      | ⟨1, _⟩ => rfl
      | ⟨2, _⟩ => rfl)).trans ?_
  -- inside the padding
  refine (Idealize.ShloMosaic.pad_apply_of_inside ![0, 0, 0] ![0, 0, 85] ![0, 0, 0] _ _ pads_S4x43x43_S4x43x128_000_000_0850 h_S_
    (ix3 g k (⟨o.val, by omega⟩ : Fin 128)) (ix3 g k o) (fun a => match a with
      | ⟨0, _⟩ => by show g.val = 0 + g.val * (0 + 1); omega
      | ⟨1, _⟩ => by show k.val = 0 + k.val * (0 + 1); omega
      | ⟨2, _⟩ => by show o.val = 0 + o.val * (0 + 1); omega)).trans ?_
  rw [mulf_apply]
  congr 1
  · exact transpose_apply [0, 2, 1] W transposes_S4x43x43_S4x43x43_0_2_1 (ix3 g k o) (ix3 g o k) (fun b => match b with
      | ⟨0, _⟩ => rfl
      | ⟨1, _⟩ => rfl
      | ⟨2, _⟩ => rfl)
  · refine (broadcastInDim_apply ![0, 1, 2] bcast_S4x1x1_S4x43x43_0_1_2 _ (ix3 g k o) (ix3 g (0 : Fin 1) (0 : Fin 1)) (fun a => match a with
      | ⟨0, _⟩ => rfl
      | ⟨1, _⟩ => rfl
      | ⟨2, _⟩ => rfl)).trans ?_
    refine (shapeCast_apply (scales lit) shapeCasts_S4_S4x1x1 (ix3 g (0 : Fin 1) (0 : Fin 1)) (ix1 g) (by
      rw [Shape.rowMajor_val_one, Shape.rowMajor_val_three]
      show g.val = (g.val * 1 + 0) * 1 + 0
      omega)).trans ?_
    exact scales_at lit g

/-- Entry (0, lane `128 · g + o`) of the packed bias row is `(b (g, o) + b' (g, o)) · s_g`. -/
theorem packB_at (lit : Fin 4 → BitVec 32) (b b' : S4x43.Idx → EReal) (g : Fin 4) (o : Fin 43) :
    packB lit b b' (ix2 (0 : Fin 1) (lane g o)) = (b (ix2 g o) + b' (ix2 g o)) * Ideal.ofBits .f32 (lit g) := by
  have hg := g.isLt
  have ho := o.isLt
  unfold packB
  refine (shapeCast_apply _ shapeCasts_S4x128_S1x512 (ix2 (0 : Fin 1) (lane g o))
    (ix2 g (⟨o.val, by omega⟩ : Fin 128)) (by
      rw [Shape.rowMajor_val_two, Shape.rowMajor_val_two]
      show g.val * 128 + o.val = 0 * 512 + (128 * g.val + o.val)
      omega)).trans ?_
  refine (Idealize.ShloMosaic.pad_apply_of_inside ![0, 0] ![0, 85] ![0, 0] _ _ pads_S4x43_S4x128_000_0850 h_S_
    (ix2 g (⟨o.val, by omega⟩ : Fin 128)) (ix2 g o) (fun a => match a with
      | ⟨0, _⟩ => by show g.val = 0 + g.val * (0 + 1); omega
      | ⟨1, _⟩ => by show o.val = 0 + o.val * (0 + 1); omega)).trans ?_
  rw [mulf_apply, addf_apply]
  congr 1
  refine (broadcastInDim_apply ![0, 1] bcast_S4x1_S4x43_0_1 _ (ix2 g o) (ix2 g (0 : Fin 1)) (fun a => match a with
    | ⟨0, _⟩ => rfl
    | ⟨1, _⟩ => rfl)).trans ?_
  refine (shapeCast_apply (scales lit) shapeCasts_S4_S4x1 (ix2 g (0 : Fin 1)) (ix1 g) (by
    rw [Shape.rowMajor_val_one, Shape.rowMajor_val_two]
    show g.val = g.val * 1 + 0
    omega)).trans ?_
  exact scales_at lit g

/-! ## The buffers the region finds -/

variable (m : (ℓ : Loc nD τ sig) → Buf (Elt Ideal) ℓ) (c : Dev nD)

/-- The x-path packed weights as the region finds them. -/
theorem V_main_v8 : (Gen.V (F := Ideal) m c main_v8 : S43x512.Idx → Ideal .bf16) = packW lit0 (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxHeartbeats 1000000 in
/-- The h-path packed weights as the region finds them. -/
theorem V_main_v15 : (Gen.V (F := Ideal) m c main_v15 : S43x512.Idx → Ideal .bf16) = packW lit1 (m ((c : Thread nD τ).loc main_arg5)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxHeartbeats 2000000 in
/-- The packed bias row as the region finds it. -/
theorem V_main_v21 : (Gen.V (F := Ideal) m c main_v21 : S1x512.Idx → Ideal .f32)
    = packB lit2 (m ((c : Thread nD τ).loc main_arg4)) (m ((c : Thread nD τ).loc main_arg6)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

end Cert.KernelIdeal.HostPack

end
-- ==== Proof.KernelRun.lean ====
/-
  The kernel's run, with its result array named as one function of the arguments.

  The region finds `x`, `h`, `c` as launched, and the packed weights and packed bias row as the host prepared them from
  `Wx`, `Wh`, `bx`, `bh`; the 128 blocks tile the result, so after the run the result array is `kernelArr` of those.
-/
import proofs.«131802_j37993280700890_2_alg».proof.Proof.KernelArray
import proofs.«131802_j37993280700890_2_alg».proof.Proof.HostPack

noncomputable section

namespace Cert.KernelIdeal.CellRun

open Cert.KernelIdeal Cert.KernelIdeal.Gen Cert.KernelIdeal.CellArray Cert.KernelIdeal.HostPack
open Idealize.ShloMosaic Idealize.ShloMosaic.TcCoe Idealize.SL.Sem

variable (m : (ℓ : Loc nD τ sig) → Buf (Elt Ideal) ℓ) (ρ : Dev nD → PrngReg)

/-- The result array after the run, as a function of the arguments as launched. -/
theorem final_args (c : Dev nD) : (dats m 0 c).arrAt 6 cfg0.N
    = kernelArr (m ((c : Thread nD τ).loc main_arg0)) (m ((c : Thread nD τ).loc main_arg1)) (m ((c : Thread nD τ).loc main_arg2))
        (packW lit0 (m ((c : Thread nD τ).loc main_arg3))) (packW lit1 (m ((c : Thread nD τ).loc main_arg5)))
        (packB lit2 (m ((c : Thread nD τ).loc main_arg4)) (m ((c : Thread nD τ).loc main_arg6))) := by
  rw [final m c, V_main_arg0, V_main_arg1, V_main_arg2, V_main_v8, V_main_v15, V_main_v21]

/-- Every weakly fair execution of the idealized kernel terminates with the result array at `kernelArr` of the arguments
    and the arguments unchanged. -/
theorem run : θ_run defs (onTc (τ := τ) (main (F := Ideal))) ⟨m, fun _ => 0, ρ⟩ fun r => ∀ c : Dev nD,
      r.2.mem ((c : Thread nD τ).loc main_v22)
        = kernelArr (m ((c : Thread nD τ).loc main_arg0)) (m ((c : Thread nD τ).loc main_arg1)) (m ((c : Thread nD τ).loc main_arg2))
            (packW lit0 (m ((c : Thread nD τ).loc main_arg3))) (packW lit1 (m ((c : Thread nD τ).loc main_arg5)))
            (packB lit2 (m ((c : Thread nD τ).loc main_arg4)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_args m c), (h c).2⟩) (Cert.KernelIdeal.Value.run_blocks m ρ)

end Cert.KernelIdeal.CellRun

end
-- ==== Proof.RefEntry.lean ====
/-
  The reference's result, entry by entry, on the extended reals.

  For gate `g`, row `b` and output column `o` the reference forms the plain pre-activation
      z_g (b, o) = (Σ_k Wx (g, o, k) · x (b, k) + bx (g, o)) + (Σ_k Wh (g, o, k) · h (b, k) + bh (g, o)),
  and its result at `(b, o)` is the cell
      σ(z_3) · tanh( σ(z_1) · c (b, o) + σ(z_0) · tanh z_2 ),     σ(z) = 1 / (1 + e^(−z)).
-/
import proofs.«131802_j37993280700890_2_alg».proof.Proof.Gen.ReferenceIdeal.Read
import proofs.«131802_j37993280700890_2_alg».proof.Proof.LibLogisticTanhCell
import Idealize.ShloMosaic.Lib.ValueIdx
import Idealize.ShloMosaic.PureOps.Ideal

noncomputable section

namespace Cert.ReferenceIdeal.RefValue

open Cert.ReferenceIdeal Cert.ReferenceIdeal.Read Idealize.ShloMosaic Idealize.ShloMosaic.ValueIdx Cert.LibLogisticTanhCell

/-- The plain pre-activation of gate `g` at row `b`, column `o`. -/
def plainPre (X H : S262144x43.Idx → EReal) (Wx : S4x43x43.Idx → EReal) (bx : S4x43.Idx → EReal)
    (Wh : S4x43x43.Idx → EReal) (bh : S4x43.Idx → EReal) (g : Fin 4) (b : Fin 262144) (o : Fin 43) : EReal :=
  ((∑ k : Fin 43, Wx (ix3 g o k) * X (ix2 b k)) + bx (ix2 g o)) + ((∑ k : Fin 43, Wh (ix3 g o k) * H (ix2 b k)) + bh (ix2 g o))

variable (x0 x1 x2 : (⟨S262144x43, .f32⟩ : BufTy).Contents (Elt Ideal)) (x3 : (⟨S4x43x43, .f32⟩ : BufTy).Contents (Elt Ideal))
  (x4 : (⟨S4x43, .f32⟩ : BufTy).Contents (Elt Ideal)) (x5 : (⟨S4x43x43, .f32⟩ : BufTy).Contents (Elt Ideal))
  (x6 : (⟨S4x43, .f32⟩ : BufTy).Contents (Elt Ideal))

/-- The stacked pre-activations [4, 262144, 43] at `(g, b, o)`. -/
theorem pre_at (g : Fin 4) (b : Fin 262144) (o : Fin 43) :
    val_main_v10 (F := Ideal) x0 x1 x3 x4 x5 x6 (ix3 g b o) = plainPre x0 x1 x3 x4 x5 x6 g b o := by
  have el : ∀ k : Fin 43, lidx_main_v0 (idx_main_v1 (ix3 g b o)) k = ix3 g o k := fun k => by
    funext a; apply Fin.ext
    match a with
    | ⟨0, _⟩ => rfl
    | ⟨1, _⟩ => rfl
    | ⟨2, _⟩ => rfl
  have er : ∀ k : Fin 43, ridx_main_v0 (idx_main_v1 (ix3 g b o)) k = ix2 b k := fun k => by
    funext a; apply Fin.ext
    match a with
    | ⟨0, _⟩ => rfl
    | ⟨1, _⟩ => rfl
  have el' : ∀ k : Fin 43, lidx_main_v5 (idx_main_v6 (ix3 g b o)) k = ix3 g o k := fun k => by
    funext a; apply Fin.ext
    match a with
    | ⟨0, _⟩ => rfl
    | ⟨1, _⟩ => rfl
    | ⟨2, _⟩ => rfl
  have er' : ∀ k : Fin 43, ridx_main_v5 (idx_main_v6 (ix3 g b o)) k = ix2 b k := fun k => by
    funext a; apply Fin.ext
    match a with
    | ⟨0, _⟩ => rfl
    | ⟨1, _⟩ => rfl
  have eb : idx_main_v2 (idx_main_v3 (ix3 g b o)) = ix2 g o := by
    funext a; apply Fin.ext
    match a with
    | ⟨0, _⟩ => rfl
    | ⟨1, _⟩ => rfl
  have eb' : idx_main_v7 (idx_main_v8 (ix3 g b o)) = ix2 g o := by
    funext a; apply Fin.ext
    match a with
    | ⟨0, _⟩ => rfl
    | ⟨1, _⟩ => rfl
  rw [val_main_v10_apply, val_main_v4_apply, val_main_v9_apply, val_main_v1_apply, val_main_v6_apply, val_main_v0_apply,
    val_main_v5_apply, val_main_v3_apply, val_main_v8_apply, val_main_v2_apply, val_main_v7_apply, eb, eb']
  simp only [el, er, el', er']
  rfl

/-- Row-major position `b · 43 + o` of [262144, 43] read back as `(b, o)`. -/
theorem unmerge (b : Fin 262144) (o : Fin 43) :
    (b.val * 43 + o.val) / 43 % 262144 = b.val ∧ (b.val * 43 + o.val) % 43 = o.val := by
  have hb := b.isLt
  have ho := o.isLt
  omega

/-- The reference's result at `(b, o)`: the logistic cell of the four plain pre-activations and the state entry. -/
theorem result_at (b : Fin 262144) (o : Fin 43) :
    val_main_v42 (F := Ideal) x0 x1 x2 x3 x4 x5 x6 (ix2 b o)
      = cellSig (plainPre x0 x1 x3 x4 x5 x6 0 b o) (plainPre x0 x1 x3 x4 x5 x6 1 b o) (plainPre x0 x1 x3 x4 x5 x6 2 b o)
          (plainPre x0 x1 x3 x4 x5 x6 3 b o) (x2 (ix2 b o)) := by
  obtain ⟨u1, u2⟩ := unmerge b o
  have s0 : idx_main_v11 (idx_main_v12 (ix2 b o)) = ix3 (0 : Fin 4) b o := by
    funext a; apply Fin.ext
    match a with
    | ⟨0, _⟩ => rfl
    | ⟨1, _⟩ => exact u1
    | ⟨2, _⟩ => exact u2
  have s1 : idx_main_v19 (idx_main_v20 (ix2 b o)) = ix3 (1 : Fin 4) b o := by
    funext a; apply Fin.ext
    match a with
    | ⟨0, _⟩ => rfl
    | ⟨1, _⟩ => exact u1
    | ⟨2, _⟩ => exact u2
  have s2 : idx_main_v27 (idx_main_v28 (ix2 b o)) = ix3 (2 : Fin 4) b o := by
    funext a; apply Fin.ext
    match a with
    | ⟨0, _⟩ => rfl
    | ⟨1, _⟩ => exact u1
    | ⟨2, _⟩ => exact u2
  have s3 : idx_main_v30 (idx_main_v31 (ix2 b o)) = ix3 (3 : Fin 4) b o := by
    funext a; apply Fin.ext
    match a with
    | ⟨0, _⟩ => rfl
    | ⟨1, _⟩ => exact u1
    | ⟨2, _⟩ => exact u2
  rw [val_main_v42_apply, val_main_v37_apply, val_main_v41_apply, val_main_v40_apply, val_main_v38_apply, val_main_v39_apply,
    val_main_v26_apply, val_main_v18_apply, val_main_v29_apply, val_main_v35_apply, val_main_v24_apply, val_main_v16_apply,
    val_main_v33_apply, val_main_v22_apply, val_main_v14_apply, val_main_v32_apply, val_main_v21_apply, val_main_v13_apply,
    val_main_v31_apply, val_main_v30_apply, val_main_v28_apply, val_main_v27_apply, val_main_v20_apply, val_main_v19_apply,
    val_main_v12_apply, val_main_v11_apply, s0, s1, s2, s3, pre_at, pre_at, pre_at, pre_at,
    val_main_v36_apply, val_main_v34_apply, val_main_v25_apply, val_main_v23_apply, val_main_v17_apply, val_main_v15_apply,
    val_main_cst_apply, val_main_cst_0_apply, val_main_cst_1_apply, val_main_cst_2_apply, val_main_cst_3_apply, val_main_cst_4_apply]
  rfl

end Cert.ReferenceIdeal.RefValue

end
-- ==== Proof.CellBridge.lean ====
/-
  The two programs compute one function of real-valued inputs.

  Kernel side: entry (row `k`, lane `128 · g + o`) of the packed weights is `W (g, o, k) · s_g` and the packed bias there is
  `(bx (g, o) + bh (g, o)) · s_g`, with `s = (½, ½, 1, ½)`.  So for real-valued inputs the packed pre-activation of gate `g`
  is `s_g · z_g`, where `z_g` is the reference's plain pre-activation (distributivity of `s_g` over the two sums and the
  biases — valid for real numbers).  The three logistic gates then go through `½ · (1 + tanh (z/2)) = σ(z)` and the
  candidate gate through `tanh (1 · z) = tanh z`: the kernel's cell is the reference's cell, entry by entry.
-/
import proofs.«131802_j37993280700890_2_alg».proof.Proof.KernelArray
import proofs.«131802_j37993280700890_2_alg».proof.Proof.HostPack
import proofs.«131802_j37993280700890_2_alg».proof.Proof.RefEntry
import proofs.«131802_j37993280700890_2_alg».proof.Proof.LibLogisticTanhCell

noncomputable section

namespace Cert.CellBridge

open Idealize.ShloMosaic Idealize.ShloMosaic.ValueIdx Cert.LibLogisticTanhCell
open Cert.KernelIdeal.CellValue (lane)
open Cert.KernelIdeal.CellArray (arrPre kernelArr)
open Cert.KernelIdeal.HostPack (packW packB packW_at packB_at)
open Cert.ReferenceIdeal.RefValue (plainPre result_at)
open Cert.KernelIdeal (lit0 lit1 lit2 S262144x43 S4x43x43 S4x43)

variable (X H C : S262144x43.Idx → EReal) (Wx Wh : S4x43x43.Idx → EReal) (bx bh : S4x43.Idx → EReal)

/-- For real-valued inputs, gate `g` with real scale `s` (the three tables' word at `g`): the reference's plain
    pre-activation is a real `z`, and the kernel's packed pre-activation at lane `128 · g + o` is `s · z`. -/
theorem gate_pre (hX : ∀ i, ∃ r : ℝ, X i = (r : EReal)) (hH : ∀ i, ∃ r : ℝ, H i = (r : EReal))
    (hWx : ∀ i, ∃ r : ℝ, Wx i = (r : EReal)) (hWh : ∀ i, ∃ r : ℝ, Wh i = (r : EReal))
    (hbx : ∀ i, ∃ r : ℝ, bx i = (r : EReal)) (hbh : ∀ i, ∃ r : ℝ, bh i = (r : EReal))
    (g : Fin 4) (s : ℝ)
    (s0 : Ideal.ofBits .f32 (lit0 g) = (s : EReal)) (s1 : Ideal.ofBits .f32 (lit1 g) = (s : EReal))
    (s2 : Ideal.ofBits .f32 (lit2 g) = (s : EReal)) (b : Fin 262144) (o : Fin 43) :
    ∃ z : ℝ, plainPre X H Wx bx Wh bh g b o = (z : EReal)
      ∧ arrPre X H (packW lit0 Wx) (packW lit1 Wh) (packB lit2 bx bh) b (lane g o) = ((s * z : ℝ) : EReal) := by
  choose xr hx using hX
  choose hr hh using hH
  choose wr hw using hWx
  choose ur hu using hWh
  choose br hb using hbx
  choose cr hc using hbh
  refine ⟨((∑ k, wr (ix3 g o k) * xr (ix2 b k)) + br (ix2 g o)) + ((∑ k, ur (ix3 g o k) * hr (ix2 b k)) + cr (ix2 g o)), ?_, ?_⟩
  · unfold plainPre
    simp only [hx, hh, hw, hu, hb, hc]
    exact pre_plain (fun k => xr (ix2 b k)) (fun k => hr (ix2 b k)) (fun k => wr (ix3 g o k)) (fun k => ur (ix3 g o k))
      (br (ix2 g o)) (cr (ix2 g o))
  · unfold arrPre
    simp only [packW_at, packB_at, s0, s1, s2, hx, hh, hw, hu, hb, hc]
    exact pre_scaled (fun k => xr (ix2 b k)) (fun k => hr (ix2 b k)) (fun k => wr (ix3 g o k)) (fun k => ur (ix3 g o k))
      (br (ix2 g o)) (cr (ix2 g o)) s

/-- For real-valued `x`, `h`, weights and biases (the state `c` may be any extended real), the kernel's array function
    of the packed operands is the reference's result. -/
theorem kernel_eq_reference (hX : ∀ i, ∃ r : ℝ, X i = (r : EReal)) (hH : ∀ i, ∃ r : ℝ, H i = (r : EReal))
    (hWx : ∀ i, ∃ r : ℝ, Wx i = (r : EReal)) (hWh : ∀ i, ∃ r : ℝ, Wh i = (r : EReal))
    (hbx : ∀ i, ∃ r : ℝ, bx i = (r : EReal)) (hbh : ∀ i, ∃ r : ℝ, bh i = (r : EReal)) :
    kernelArr X H C (packW lit0 Wx) (packW lit1 Wh) (packB lit2 bx bh)
      = Cert.ReferenceIdeal.Read.val_main_v42 (F := Ideal) X H C Wx bx Wh bh := by
  funext i
  obtain ⟨b, o, rfl⟩ : ∃ (b : Fin 262144) (o : Fin 43), i = ix2 b o := ⟨i 0, i 1, eq_ix2 i⟩
  rw [result_at]
  obtain ⟨z0, p0, a0⟩ := gate_pre X H Wx Wh bx bh hX hH hWx hWh hbx hbh 0 (1 / 2) word_half word_half word_half b o
  obtain ⟨z1, p1, a1⟩ := gate_pre X H Wx Wh bx bh hX hH hWx hWh hbx hbh 1 (1 / 2) word_half word_half word_half b o
  obtain ⟨z2, p2, a2⟩ := gate_pre X H Wx Wh bx bh hX hH hWx hWh hbx hbh 2 1 word_one word_one word_one b o
  obtain ⟨z3, p3, a3⟩ := gate_pre X H Wx Wh bx bh hX hH hWx hWh hbx hbh 3 (1 / 2) word_half word_half word_half b o
  show cellTanh (arrPre X H (packW lit0 Wx) (packW lit1 Wh) (packB lit2 bx bh) b (lane 0 o))
      (arrPre X H (packW lit0 Wx) (packW lit1 Wh) (packB lit2 bx bh) b (lane 1 o))
      (arrPre X H (packW lit0 Wx) (packW lit1 Wh) (packB lit2 bx bh) b (lane 2 o))
      (arrPre X H (packW lit0 Wx) (packW lit1 Wh) (packB lit2 bx bh) b (lane 3 o)) (C (ix2 b o)) = _
  rw [p0, p1, p2, p3, a0, a1, a2, a3]
  exact cell_eq z0 z1 z2 z3 _

end Cert.CellBridge

end
-- ==== Proof.FiniteInputs.lean ====
/-
  From the precondition to real entries.

  The precondition is the conjunction, over the seven inputs `a`, of `all (|a| < +∞)`.  At the ideal instance `|x|` is
  `max x (−x)` and the f32 word `0x7F800000` is `⊤`; `max x (−x) < ⊤` fails at both infinities (where the maximum is `⊤`)
  and holds at every real.  So under the precondition every entry of every input is a real number.
-/
import proofs.«131802_j37993280700890_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Cert.Pre_finite_inputs Idealize.ShloMosaic Idealize.ShloMosaic.ValueIdx

instance : Subsingleton S_.Idx := ⟨fun _ _ => funext fun d => d.elim0⟩

/-- The f32 word `0x7F800000` is `+∞`. -/
theorem word_top : Ideal.ofBits .f32 0x7F800000#32 = ⊤ := by
  simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [word_top] at h
  induction x using EReal.rec with
  | bot => exfalso; simp [Ideal.cmp] at h
  | top => exfalso; simp [Ideal.cmp] at h
  | coe r => exact ⟨r, rfl⟩

/-- One conjunct: `all (|a| < +∞)` gives a real at every index of `a`. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = (r : EReal) := by
  have e := Host.reduce_andi_all _ _ hr hu ix0 h i
  have e2 : broadcastInDim s ![] hb (constant (F := Ideal) S_ .f32 0x7F800000#32) i = Ideal.ofBits .f32 0x7F800000#32 :=
    broadcastInDim_apply _ hb _ i ix0 (fun a => a.elim0)
  refine real_of_abs_lt (a i) ?_
  rw [← e2]
  exact e

variable [Cert.Pre_finite_inputs.Facts]
open Cert.Pre_finite_inputs.Facts

/-- Under the precondition every entry of every input is a real. -/
theorem reals_of_pre (a0 a1 a2 : FVec Ideal S262144x43 .f32) (a3 : FVec Ideal S4x43x43 .f32) (a4 : FVec Ideal S4x43 .f32)
    (a5 : FVec Ideal S4x43x43 .f32) (a6 : FVec Ideal S4x43 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3, all_real a4 _ _ _ e4,
    all_real a5 _ _ _ e5, all_real a6 _ _ _ e6⟩

end Cert.Pre_finite_inputs.Finite

end
-- ==== Proof.lean ====
/-
  An LSTM cell on 262144 rows of width 43: the kernel against its reference, on the extended reals.

  Both programs form, for each of the four gates, a pre-activation from `x`, `h`, the weights and the biases, and combine
  them with the state `c`:
      out = gate_o · tanh( gate_f · c + gate_i · tanh(pre_g) ).
  The reference uses the logistic gate `σ(z) = 1 / (1 + e^(−z))` of the plain pre-activation `z`.  The kernel packs the four
  gates' weights into lane banks with the scale `½` folded into the three logistic gates' weights and biases, and uses
  `½ · (1 + tanh(z/2))`, which equals `σ(z)` at every real `z`.  Folding the scale through the sums is distributivity, which
  needs the inputs finite: this is where the precondition is used.

  The modules: the cell's algebra over abstract index types (LibLogisticTanhCell); the kernel's block entry by entry
  (KernelEntry) and the whole array from its blocks (KernelArray); the packed operands read at an index (HostPack);
  the reference's result entry by entry (RefEntry); real entries from the precondition (FiniteInputs); the two sides
  as one function (CellBridge); the kernel's run re-posted (KernelRun).  The three frames are the generated ones, and
  the idealization rewrote nothing.
-/
import proofs.«131802_j37993280700890_2_alg».proof.Defs
import proofs.«131802_j37993280700890_2_alg».proof.Proof.Gen.Kernel
import proofs.«131802_j37993280700890_2_alg».proof.Proof.Gen.Kernel.Skeleton
import proofs.«131802_j37993280700890_2_alg».proof.Proof.Gen.Kernel.Launch
import proofs.«131802_j37993280700890_2_alg».proof.Proof.Gen.Kernel.Points
import proofs.«131802_j37993280700890_2_alg».proof.Proof.Gen.Kernel.Frame
import proofs.«131802_j37993280700890_2_alg».proof.Proof.Gen.KernelIdeal
import proofs.«131802_j37993280700890_2_alg».proof.Proof.Gen.KernelIdeal.Skeleton
import proofs.«131802_j37993280700890_2_alg».proof.Proof.Gen.KernelIdeal.Launch
import proofs.«131802_j37993280700890_2_alg».proof.Proof.Gen.KernelIdeal.Points
import proofs.«131802_j37993280700890_2_alg».proof.Proof.Gen.KernelIdeal.Frame
import proofs.«131802_j37993280700890_2_alg».proof.Proof.Gen.ReferenceIdeal
import proofs.«131802_j37993280700890_2_alg».proof.Proof.Gen.Pre_finite_inputs
import proofs.«131802_j37993280700890_2_alg».proof.Proof.Gen.KernelIdeal.Value
import proofs.«131802_j37993280700890_2_alg».proof.Proof.Gen.ReferenceIdeal.Run
import proofs.«131802_j37993280700890_2_alg».proof.Proof.Gen.ReferenceIdeal.Read
import proofs.«131802_j37993280700890_2_alg».proof.Proof.KernelRun
import proofs.«131802_j37993280700890_2_alg».proof.Proof.CellBridge
import proofs.«131802_j37993280700890_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, of which the precondition holds, both idealized programs end with the same
    result array: the kernel's is `kernelArr` of the arguments with the packed operands, the reference's is its composed
    term, and for real-valued inputs these are one function. -/
theorem algebraic : Cert.algebraic_KernelIdeal_ReferenceIdeal := by
  intro m ρ m' ρ' hpre hagree
  refine ⟨_, Cert.KernelIdeal.CellRun.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, -, r3, r4, r5, r6⟩ := Cert.Pre_finite_inputs.Finite.reals_of_pre _ _ _ _ _ _ _ (hpre c)
  rw [Cert.ReferenceIdeal.Read.val_main_v42_eq, (hagree c).1, (hagree c).2.1, (hagree c).2.2.1, (hagree c).2.2.2.1,
    (hagree c).2.2.2.2.1, (hagree c).2.2.2.2.2.1, (hagree c).2.2.2.2.2.2]
  exact (Cert.CellBridge.kernel_eq_reference _ _ _ _ _ _ _ r0 r1 r3 r5 r4 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
